-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x400000 32) (main_arg2 : FVec F S256x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S1x256 : Shape := ⟨2, ![1, 256]⟩
abbrev S2000x256 : Shape := ⟨2, ![2000, 256]⟩
abbrev S450000x256 : Shape := ⟨2, ![450000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 95
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000, .i32⟩
  | .hbm, ⟨9, _⟩ => ⟨S1x400000, .i32⟩
  | .hbm, ⟨10, _⟩ => ⟨S400000, .i32⟩
  | .hbm, ⟨11, _⟩ => ⟨S450000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S450000, .i32⟩
  | .hbm, ⟨34, _⟩ => ⟨S450000, .i1⟩
  | .hbm, ⟨35, _⟩ => ⟨S_, .i32⟩
  | .hbm, ⟨36, _⟩ => ⟨S450000, .i32⟩
  | .hbm, ⟨37, _⟩ => ⟨S450000, .i32⟩
  | .hbm, ⟨38, _⟩ => ⟨S450000, .i32⟩
  | .hbm, ⟨39, _⟩ => ⟨S450000x1, .i32⟩
  | .hbm, ⟨40, _⟩ => ⟨S450000, .f32⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000, .f32⟩
  | .hbm, ⟨50, _⟩ => ⟨S450000, .f32⟩
  | .hbm, ⟨51, _⟩ => ⟨S1x256, .f32⟩
  | .hbm, ⟨52, _⟩ => ⟨S50000x256, .f32⟩
  | .hbm, ⟨53, _⟩ => ⟨S450000x1, .f32⟩
  | .hbm, ⟨54, _⟩ => ⟨S_, .i32⟩
  | .hbm, ⟨55, _⟩ => ⟨S450000, .i32⟩
  | .hbm, ⟨56, _⟩ => ⟨S450000, .i1⟩
  | .hbm, ⟨57, _⟩ => ⟨S_, .i32⟩
  | .hbm, ⟨58, _⟩ => ⟨S450000, .i32⟩
  | .hbm, ⟨59, _⟩ => ⟨S450000, .i32⟩
  | .hbm, ⟨60, _⟩ => ⟨S450000, .i32⟩
  | .hbm, ⟨61, _⟩ => ⟨S450000x1, .i32⟩
  | .hbm, ⟨62, _⟩ => ⟨S450000x256, .f32⟩
  | .hbm, ⟨63, _⟩ => ⟨S450000x256, .f32⟩
  | .hbm, ⟨64, _⟩ => ⟨S450000x256, .f32⟩
  | .hbm, ⟨65, _⟩ => ⟨S_, .f32⟩
  | .hbm, ⟨66, _⟩ => ⟨S50000x256, .f32⟩
  | .hbm, ⟨67, _⟩ => ⟨S450000x1, .i32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S450000x1, .f32⟩
  | .hbm, ⟨75, _⟩ => ⟨S_, .i32⟩
  | .hbm, ⟨76, _⟩ => ⟨S450000, .i32⟩
  | .hbm, ⟨77, _⟩ => ⟨S450000, .i1⟩
  | .hbm, ⟨78, _⟩ => ⟨S_, .i32⟩
  | .hbm, ⟨79, _⟩ => ⟨S450000, .i32⟩
  | .hbm, ⟨80, _⟩ => ⟨S450000, .i32⟩
  | .hbm, ⟨81, _⟩ => ⟨S450000, .i32⟩
  | .hbm, ⟨82, _⟩ => ⟨S450000x1, .i32⟩
  | .hbm, ⟨83, _⟩ => ⟨S450000x256, .f32⟩
  | .hbm, ⟨84, _⟩ => ⟨S450000x256, .f32⟩
  | .hbm, ⟨85, _⟩ => ⟨S450000x256, .f32⟩
  | .hbm, ⟨86, _⟩ => ⟨S_, .f32⟩
  | .hbm, ⟨87, _⟩ => ⟨S50000x256, .f32⟩
  | .hbm, ⟨88, _⟩ => ⟨S450000x1, .i32⟩
  | .hbm, ⟨89, _⟩ => ⟨S50000x256, .f32⟩
  | .hbm, ⟨90, _⟩ => ⟨S_, .f32⟩
  | .hbm, ⟨91, _⟩ => ⟨S50000x256, .f32⟩
  | .hbm, ⟨92, _⟩ => ⟨S50000x256, .f32⟩
  | .hbm, ⟨93, _⟩ => ⟨S1x64, .f32⟩
  | .hbm, ⟨94, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S2000x256_S2000x256 : S2000x256.ShapeCasts S2000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x256_S256x256_S2000x256_1_0_0_1_n_n_wf : DotDims.WF S2000x256 S256x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S1x256 : Shape := ⟨2, ![1, 256]⟩
abbrev S450000x256 : Shape := ⟨2, ![450000, 256]⟩
abbrev S50000x64 : Shape := ⟨2, ![50000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000, .i32⟩
  | .hbm, ⟨9, _⟩ => ⟨S1x400000, .i32⟩
  | .hbm, ⟨10, _⟩ => ⟨S400000, .i32⟩
  | .hbm, ⟨11, _⟩ => ⟨S450000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S450000, .i32⟩
  | .hbm, ⟨34, _⟩ => ⟨S450000, .i1⟩
  | .hbm, ⟨35, _⟩ => ⟨S_, .i32⟩
  | .hbm, ⟨36, _⟩ => ⟨S450000, .i32⟩
  | .hbm, ⟨37, _⟩ => ⟨S450000, .i32⟩
  | .hbm, ⟨38, _⟩ => ⟨S450000, .i32⟩
  | .hbm, ⟨39, _⟩ => ⟨S450000x1, .i32⟩
  | .hbm, ⟨40, _⟩ => ⟨S450000, .f32⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000, .f32⟩
  | .hbm, ⟨50, _⟩ => ⟨S450000, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S450000x1, .f32⟩
  | .hbm, ⟨56, _⟩ => ⟨S_, .i32⟩
  | .hbm, ⟨57, _⟩ => ⟨S450000, .i32⟩
  | .hbm, ⟨58, _⟩ => ⟨S450000, .i1⟩
  | .hbm, ⟨59, _⟩ => ⟨S_, .i32⟩
  | .hbm, ⟨60, _⟩ => ⟨S450000, .i32⟩
  | .hbm, ⟨61, _⟩ => ⟨S450000, .i32⟩
  | .hbm, ⟨62, _⟩ => ⟨S450000, .i32⟩
  | .hbm, ⟨63, _⟩ => ⟨S450000x1, .i32⟩
  | .hbm, ⟨64, _⟩ => ⟨S450000x256, .f32⟩
  | .hbm, ⟨65, _⟩ => ⟨S450000x256, .f32⟩
  | .hbm, ⟨66, _⟩ => ⟨S450000x256, .f32⟩
  | .hbm, ⟨67, _⟩ => ⟨S_, .f32⟩
  | .hbm, ⟨68, _⟩ => ⟨S50000x256, .f32⟩
  | .hbm, ⟨69, _⟩ => ⟨S450000x1, .i32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S450000x1, .f32⟩
  | .hbm, ⟨79, _⟩ => ⟨S_, .i32⟩
  | .hbm, ⟨80, _⟩ => ⟨S450000, .i32⟩
  | .hbm, ⟨81, _⟩ => ⟨S450000, .i1⟩
  | .hbm, ⟨82, _⟩ => ⟨S_, .i32⟩
  | .hbm, ⟨83, _⟩ => ⟨S450000, .i32⟩
  | .hbm, ⟨84, _⟩ => ⟨S450000, .i32⟩
  | .hbm, ⟨85, _⟩ => ⟨S450000, .i32⟩
  | .hbm, ⟨86, _⟩ => ⟨S450000x1, .i32⟩
  | .hbm, ⟨87, _⟩ => ⟨S450000x256, .f32⟩
  | .hbm, ⟨88, _⟩ => ⟨S450000x256, .f32⟩
  | .hbm, ⟨89, _⟩ => ⟨S450000x256, .f32⟩
  | .hbm, ⟨90, _⟩ => ⟨S_, .f32⟩
  | .hbm, ⟨91, _⟩ => ⟨S50000x256, .f32⟩
  | .hbm, ⟨92, _⟩ => ⟨S450000x1, .i32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S50000x64, .f32⟩
  | .hbm, ⟨98, _⟩ => ⟨S1x64, .f32⟩
  | .hbm, ⟨99, _⟩ => ⟨S50000x64, .f32⟩
  | .hbm, ⟨100, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x256_S256x256_S50000x256_1_0_0_1_n_n_wf : DotDims.WF S50000x256 S256x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x64_S50000x64_1_0_0_1_n_n_wf : DotDims.WF S50000x256 S256x64 S50000x64 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KRun.lean ====
/-
  The kernel's run with its result named.

  @main is eight segments: three stretches of host operations, then three regions with a stretch before each of the last
  two. The buffers' contents at the eight boundaries are a fold from the launch memory: a stretch applies its operations, a
  region replaces its arrays by what its write-backs leave. Every weakly fair execution terminates with every unscoped
  buffer at the last boundary's contents; read at the result buffer and at the eight arguments, that is the statement
  below. The arguments are written by no operation and no region, so they end as launched.
-/
import proofs.«132335_j68143951118655_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.Model.lean ====
/-
  The function both programs compute, named stage by stage at the ideal values.

  A graph of 50000 nodes and 400000 directed edges gets one self loop per node, 450000 edges in all. `rows` and `cols`
  are the source and the target of every edge; `deg` counts, for each node, the edges leaving it; `dis` is
  deg^(-1/2) where the degree is positive and 0 elsewhere; `norm` gives each edge the product of `dis` at its two ends.
  One aggregation layer `layerOf` takes a feature matrix h, reads the row of h at each edge's source, scales it by the
  edge's norm, adds it into the row of the edge's target, and clips the sums at zero from below. `lin256` and `lin64` are
  the affine maps x · W + b with the bias given as a one-row matrix. The model is
  lin64 ∘ layer ∘ lin256 ∘ layer ∘ lin256. Nothing is proved here; the stages are spelt with the host's operations so
  that each program's text can be recognised in them.
-/
import proofs.«132335_j68143951118655_1_alg».proof.ReferenceIdeal
import proofs.«132335_j68143951118655_1_alg».proof.Proof.Gen.ReferenceIdeal
import Idealize.ShloMosaic.PureOps.Ideal

noncomputable section

namespace Cert.Model

open Idealize.ShloMosaic Cert.ReferenceIdeal Cert.ReferenceIdeal.Facts₀

/-- The contents of a buffer of shape `s` and element type `t` at the ideal values. -/
abbrev C (s : Shape) (t : EltTy) : Type := (⟨s, t⟩ : BufTy).Contents (Elt Ideal)

/-- The source node of every edge: row 0 of the edge list, then the nodes themselves (the self loops). -/
def rows (e : C S2x400000 .i32) : C S450000 .i32 :=
  concatenate S450000 0 [⟨S400000, (shapeCast _ (extractStridedSlice S1x400000 ![0, 0] e slices_S2x400000_S1x400000_0_0) shapeCasts_S1x400000_S400000)⟩, ⟨S50000, (iotaInDim S50000 32 0)⟩] concatenates_S400000_S50000_S450000_d0

/-- The target node of every edge: row 1 of the edge list, then the nodes themselves. -/
def cols (e : C S2x400000 .i32) : C S450000 .i32 :=
  concatenate S450000 0 [⟨S400000, (shapeCast _ (extractStridedSlice S1x400000 ![1, 0] e slices_S2x400000_S1x400000_1_0) shapeCasts_S1x400000_S400000)⟩, ⟨S50000, (iotaInDim S50000 32 0)⟩] concatenates_S400000_S50000_S450000_d0

/-- The number of edges leaving each node: ones added up by source. -/
def deg (e : C S2x400000 .i32) : C S50000 .f32 :=
  Host.scatterAdd (F := Ideal) scatter_S50000_S450000x1_S450000_n_0_0_1 (broadcastInDim S50000 ![] bcast_S_S50000 (constant (F := Ideal) S_ .f32 0x00000000#32)) (broadcastInDim S450000x1 ![0] bcast_S450000_S450000x1_0 (rows e)) (broadcastInDim S450000 ![] bcast_S_S450000 (constant (F := Ideal) S_ .f32 0x3F800000#32))

/-- Whether each node has an edge leaving it. -/
def hasOut (e : C S2x400000 .i32) : C S50000 .i1 :=
  cmpf (F := Ideal) .ogt (deg e) (broadcastInDim S50000 ![] bcast_S_S50000 (constant (F := Ideal) S_ .f32 0x00000000#32))

/-- The inverse square root of each degree clipped at one from below. -/
def invSqrt (e : C S2x400000 .i32) : C S50000 .f32 :=
  Host.rsqrt (F := Ideal) (maximumf (F := Ideal) (deg e) (broadcastInDim S50000 ![] bcast_S_S50000 (constant (F := Ideal) S_ .f32 0x3F800000#32)))

/-- A node index below zero counts from the end. -/
def wrap (v : C S450000 .i32) : C S450000 .i32 :=
  select (cmpi .slt v (broadcastInDim S450000 ![] bcast_S_S450000 (constantI S_ 32 0#32))) (addi v (broadcastInDim S450000 ![] bcast_S_S450000 (constantI S_ 32 50000#32))) v

/-- Each edge's weight from a per-node factor `d`: the factor at its source times the factor at its target. -/
def normOf (d : C S50000 .f32) (r c : C S450000 .i32) : C S450000 .f32 :=
  mulf (F := Ideal) (φ := .f32) (Host.gather gather_S50000_S450000x1_S450000_n_0_n_n_0_1_1 d (broadcastInDim S450000x1 ![0] bcast_S450000_S450000x1_0 (wrap r))) (Host.gather gather_S50000_S450000x1_S450000_n_0_n_n_0_1_1 d (broadcastInDim S450000x1 ![0] bcast_S450000_S450000x1_0 (wrap c)))

/-- One aggregation layer from the edges' weights `n`, sources `r` and targets `c`: gather the source rows of `h`,
    scale each by its edge's weight, add into the target rows, and clip at zero from below. -/
def layerOf (n : C S450000 .f32) (r c : C S450000 .i32) (h : C S50000x256 .f32) : C S50000x256 .f32 :=
  maximumf (F := Ideal) (Host.scatterAdd (F := Ideal) scatter_S50000x256_S450000x1_S450000x256_1_0_0_1 (broadcastInDim S50000x256 ![] bcast_S_S50000x256 (constant (F := Ideal) S_ .f32 0x00000000#32)) (broadcastInDim S450000x1 ![0] bcast_S450000_S450000x1_0 c) (mulf (F := Ideal) (φ := .f32) (broadcastInDim S450000x256 ![0, 1] bcast_S450000x1_S450000x256_0_1 (broadcastInDim S450000x1 ![0] bcast_S450000_S450000x1_0 n)) (Host.gather gather_S50000x256_S450000x1_S450000x256_1_0_n_n_0_1_1256 h (broadcastInDim S450000x1 ![0] bcast_S450000_S450000x1_0 (wrap r))))) (broadcastInDim S50000x256 ![] bcast_S_S50000x256 (constant (F := Ideal) S_ .f32 0x00000000#32))

/-- x · W + b for 256 output features, the bias as a one-row matrix laid along every row. -/
def lin256 (x : C S50000x256 .f32) (w : C S256x256 .f32) (b : C S1x256 .f32) : C S50000x256 .f32 :=
  addf (F := Ideal) (Host.dotGeneral (F := Ideal) (φ₁ := .f32) (φ₂ := .f32) dot_S50000x256_S256x256_S50000x256_1_0_0_1_n_n none x w) (broadcastInDim S50000x256 ![0, 1] bcast_S1x256_S50000x256_0_1 b)

/-- x · W + b for 64 output features. -/
def lin64 (x : C S50000x256 .f32) (w : C S256x64 .f32) (b : C S1x64 .f32) : C S50000x64 .f32 :=
  addf (F := Ideal) (Host.dotGeneral (F := Ideal) (φ₁ := .f32) (φ₂ := .f32) dot_S50000x256_S256x64_S50000x64_1_0_0_1_n_n none x w) (broadcastInDim S50000x64 ![0, 1] bcast_S1x64_S50000x64_0_1 b)

/-- A bias vector as a one-row matrix. -/
def row256 (b : C S256 .f32) : C S1x256 .f32 := broadcastInDim S1x256 ![1] bcast_S256_S1x256_1 b
def row64 (b : C S64 .f32) : C S1x64 .f32 := broadcastInDim S1x64 ![1] bcast_S64_S1x64_1 b

/-- deg^(-1/2) where the degree is positive, 0 elsewhere. -/
def dis (e : C S2x400000 .i32) : C S50000 .f32 :=
  select (hasOut e) (invSqrt e) (broadcastInDim S50000 ![] bcast_S_S50000 (id (constant (F := Ideal) S_ .f32 0x00000000#32)))

/-- Each edge's weight: `dis` at its source times `dis` at its target. -/
def norm (e : C S2x400000 .i32) : C S450000 .f32 := normOf (dis e) (rows e) (cols e)

/-- One aggregation layer of the graph `e`. -/
def layer (e : C S2x400000 .i32) (h : C S50000x256 .f32) : C S50000x256 .f32 := layerOf (norm e) (rows e) (cols e) h

/-- The whole model: two rounds of "affine map, aggregate", then the affine head. -/
def model (x : C S50000x256 .f32) (e : C S2x400000 .i32) (w1 : C S256x256 .f32) (b1 : C S256 .f32) (w2 : C S256x256 .f32) (b2 : C S256 .f32)
    (wh : C S256x64 .f32) (bh : C S64 .f32) : C S50000x64 .f32 :=
  lin64 (layer e (lin256 (layer e (lin256 x w1 (row256 b1))) w2 (row256 b2))) wh (row64 bh)

end Cert.Model

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«132335_j68143951118655_1_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.KHost.lean ====
/-
  The host operations around the three regions, read at the buffers the regions and the later operations take.

  Each stretch is read over an arbitrary valuation V of the buffers it starts from, so that every term stays as short as
  the stretch. Before the first region the host computes, from the edge list alone, the edges' sources, targets and
  weights, and recasts the first bias as a one-row matrix. Between two regions it runs one aggregation layer on the
  previous region's output and recasts the next bias. A bias vector recast as a one-row matrix is the same matrix as the
  vector broadcast along axis 1, which is how the model spells it.
-/
import proofs.«132335_j68143951118655_1_alg».proof.Proof.Gen.KernelIdeal.Launch
import proofs.«132335_j68143951118655_1_alg».proof.Proof.Model
import proofs.«132335_j68143951118655_1_alg».proof.Proof.LibTypedRef
import proofs.«132335_j68143951118655_1_alg».proof.Proof.LibAffineAt
import Idealize.ShloMosaic.Lib.StableHlo.Run
import Idealize.ShloMosaic.Lib.Pipeline.Value
import Idealize.ShloMosaic.Lib.ValueIdx

set_option maxRecDepth 16384

noncomputable section

namespace Cert.KernelIdeal.KHost

open Idealize.ShloMosaic Idealize.ShloMosaic.TcCoe Idealize.ShloMosaic.ValueIdx Idealize.ShloMosaic.StableHlo
open Cert.KernelIdeal Cert.KernelIdeal.Gen

variable (V : Valuation τ sig (Elt Ideal))

/-! ## Before the first region -/

theorem pre_v3 : after (hostOps0_2 (F := Ideal)) (after hostOps0_1 (after hostOps0 V)) (Proc.devRef .tc main_v3) = Cert.Model.rows (V (Proc.devRef .tc main_arg1)) := by
  dsimp only [hostOps0, hostOps0_1, hostOps0_2]; after_results; rfl
theorem pre_v6 : after (hostOps0_2 (F := Ideal)) (after hostOps0_1 (after hostOps0 V)) (Proc.devRef .tc main_v6) = Cert.Model.cols (V (Proc.devRef .tc main_arg1)) := by
  dsimp only [hostOps0, hostOps0_1, hostOps0_2]; after_results; rfl
/-! The edges' weights are read one stretch at a time: the degree's two readings, then the call that selects between them,
    then the two gathers and their product. -/

theorem s0_v3 : after (hostOps0 (F := Ideal)) V (Proc.devRef .tc main_v3) = Cert.Model.rows (V (Proc.devRef .tc main_arg1)) := by
  dsimp only [hostOps0]; after_results_simp; rfl
theorem s0_v6 : after (hostOps0 (F := Ideal)) V (Proc.devRef .tc main_v6) = Cert.Model.cols (V (Proc.devRef .tc main_arg1)) := by
  dsimp only [hostOps0]; after_results_simp; rfl
theorem s0_v12 : after (hostOps0 (F := Ideal)) V (Proc.devRef .tc main_v12) = Cert.Model.hasOut (V (Proc.devRef .tc main_arg1)) := by
  dsimp only [hostOps0]; after_results_simp; rfl
theorem s0_v15 : after (hostOps0 (F := Ideal)) V (Proc.devRef .tc main_v15) = Cert.Model.invSqrt (V (Proc.devRef .tc main_arg1)) := by
  dsimp only [hostOps0]; after_results_simp; rfl
theorem s0_cst3 : after (hostOps0 (F := Ideal)) V (Proc.devRef .tc main_cst_3) = constant (F := Ideal) S_ .f32 0x00000000#32 := by
  dsimp only [hostOps0]; after_results_simp
theorem s01_v16 : after (hostOps0_1 (F := Ideal)) V (Proc.devRef .tc main_v16) = select (V (Proc.devRef .tc main_v12)) (V (Proc.devRef .tc main_v15)) (broadcastInDim S50000 ![] Facts₀.bcast_S_S50000 (id (V (Proc.devRef .tc main_cst_3)))) := by
  dsimp only [hostOps0_1]; after_results_simp
  simp only [Cert.LibTypedRef.ofBuf_toBuf, Cert.LibTypedRef.toBuf_ofBuf]
  rfl
theorem s01_v3 : after (hostOps0_1 (F := Ideal)) V (Proc.devRef .tc main_v3) = V (Proc.devRef .tc main_v3) := by
  dsimp only [hostOps0_1]; after_results_simp
theorem s01_v6 : after (hostOps0_1 (F := Ideal)) V (Proc.devRef .tc main_v6) = V (Proc.devRef .tc main_v6) := by
  dsimp only [hostOps0_1]; after_results_simp
theorem s02_v31 : after (hostOps0_2 (F := Ideal)) V (Proc.devRef .tc main_v31) = Cert.Model.normOf (V (Proc.devRef .tc main_v16)) (V (Proc.devRef .tc main_v3)) (V (Proc.devRef .tc main_v6)) := by
  dsimp only [hostOps0_2]; after_results_simp; rfl

theorem pre_v31 : after (hostOps0_2 (F := Ideal)) (after hostOps0_1 (after hostOps0 V)) (Proc.devRef .tc main_v31) = Cert.Model.norm (V (Proc.devRef .tc main_arg1)) := by
  rw [s02_v31, s01_v16, s01_v3, s01_v6, s0_v12, s0_v15, s0_cst3, s0_v3, s0_v6]
  rfl
theorem pre_v32 : after (hostOps0_2 (F := Ideal)) (after hostOps0_1 (after hostOps0 V)) (Proc.devRef .tc main_v32) = Cert.Model.row256 (V (Proc.devRef .tc main_arg3)) := by
  dsimp only [hostOps0, hostOps0_1, hostOps0_2]; after_results; exact Cert.LibAffineAt.rowCast_eq _ _ _
theorem pre_arg0 : after (hostOps0_2 (F := Ideal)) (after hostOps0_1 (after hostOps0 V)) (Proc.devRef .tc main_arg0) = V (Proc.devRef .tc main_arg0) := by
  dsimp only [hostOps0, hostOps0_1, hostOps0_2]; after_results
theorem pre_arg2 : after (hostOps0_2 (F := Ideal)) (after hostOps0_1 (after hostOps0 V)) (Proc.devRef .tc main_arg2) = V (Proc.devRef .tc main_arg2) := by
  dsimp only [hostOps0, hostOps0_1, hostOps0_2]; after_results
theorem pre_arg4 : after (hostOps0_2 (F := Ideal)) (after hostOps0_1 (after hostOps0 V)) (Proc.devRef .tc main_arg4) = V (Proc.devRef .tc main_arg4) := by
  dsimp only [hostOps0, hostOps0_1, hostOps0_2]; after_results
theorem pre_arg5 : after (hostOps0_2 (F := Ideal)) (after hostOps0_1 (after hostOps0 V)) (Proc.devRef .tc main_arg5) = V (Proc.devRef .tc main_arg5) := by
  dsimp only [hostOps0, hostOps0_1, hostOps0_2]; after_results
theorem pre_arg6 : after (hostOps0_2 (F := Ideal)) (after hostOps0_1 (after hostOps0 V)) (Proc.devRef .tc main_arg6) = V (Proc.devRef .tc main_arg6) := by
  dsimp only [hostOps0, hostOps0_1, hostOps0_2]; after_results
theorem pre_arg7 : after (hostOps0_2 (F := Ideal)) (after hostOps0_1 (after hostOps0 V)) (Proc.devRef .tc main_arg7) = V (Proc.devRef .tc main_arg7) := by
  dsimp only [hostOps0, hostOps0_1, hostOps0_2]; after_results

/-! ## Between the first and the second region -/

set_option maxHeartbeats 4000000 in
theorem mid1_v48 : after (hostOps1 (F := Ideal)) V (Proc.devRef .tc main_v48) = Cert.Model.layerOf (V (Proc.devRef .tc main_v31)) (V (Proc.devRef .tc main_v3)) (V (Proc.devRef .tc main_v6)) (V (Proc.devRef .tc main_v33)) := by
  dsimp only [hostOps1]; after_results_simp; rfl
theorem mid1_v49 : after (hostOps1 (F := Ideal)) V (Proc.devRef .tc main_v49) = Cert.Model.row256 (V (Proc.devRef .tc main_arg5)) := by
  dsimp only [hostOps1]; after_results; exact Cert.LibAffineAt.rowCast_eq _ _ _
theorem mid1_v31 : after (hostOps1 (F := Ideal)) V (Proc.devRef .tc main_v31) = V (Proc.devRef .tc main_v31) := by
  dsimp only [hostOps1]; after_results
theorem mid1_v3 : after (hostOps1 (F := Ideal)) V (Proc.devRef .tc main_v3) = V (Proc.devRef .tc main_v3) := by
  dsimp only [hostOps1]; after_results
theorem mid1_v6 : after (hostOps1 (F := Ideal)) V (Proc.devRef .tc main_v6) = V (Proc.devRef .tc main_v6) := by
  dsimp only [hostOps1]; after_results
theorem mid1_arg4 : after (hostOps1 (F := Ideal)) V (Proc.devRef .tc main_arg4) = V (Proc.devRef .tc main_arg4) := by
  dsimp only [hostOps1]; after_results
theorem mid1_arg6 : after (hostOps1 (F := Ideal)) V (Proc.devRef .tc main_arg6) = V (Proc.devRef .tc main_arg6) := by
  dsimp only [hostOps1]; after_results
theorem mid1_arg7 : after (hostOps1 (F := Ideal)) V (Proc.devRef .tc main_arg7) = V (Proc.devRef .tc main_arg7) := by
  dsimp only [hostOps1]; after_results

/-! ## Between the second and the third region -/

set_option maxHeartbeats 4000000 in
theorem mid2_v65 : after (hostOps2 (F := Ideal)) V (Proc.devRef .tc main_v65) = Cert.Model.layerOf (V (Proc.devRef .tc main_v31)) (V (Proc.devRef .tc main_v3)) (V (Proc.devRef .tc main_v6)) (V (Proc.devRef .tc main_v50)) := by
  dsimp only [hostOps2]; after_results_simp; rfl
theorem mid2_v66 : after (hostOps2 (F := Ideal)) V (Proc.devRef .tc main_v66) = Cert.Model.row64 (V (Proc.devRef .tc main_arg7)) := by
  dsimp only [hostOps2]; after_results; exact Cert.LibAffineAt.rowCast_eq _ _ _
theorem mid2_arg6 : after (hostOps2 (F := Ideal)) V (Proc.devRef .tc main_arg6) = V (Proc.devRef .tc main_arg6) := by
  dsimp only [hostOps2]; after_results

end Cert.KernelIdeal.KHost

end
-- ==== Proof.Lin0.lean ====
/-
  Region 0: the array the pallas_call leaves is the model's affine map of the arrays it finds.

  The grid has 25 points; point t stages rows 2000·t … 2000·t + 1999 of the input matrix, the whole weight matrix and the
  whole bias row, and writes back rows 2000·t … 2000·t + 1999 of the output. So what point t writes back is block t of
  ONE whole-array function, x · W + b, and the 25 blocks tile the 50000 rows: the output array ends holding that
  function. Stated at any contents V the region is entered with.
-/
import proofs.«132335_j68143951118655_1_alg».proof.Proof.Gen.KernelIdeal.Frame
import proofs.«132335_j68143951118655_1_alg».proof.Proof.Model
import proofs.«132335_j68143951118655_1_alg».proof.Proof.LibAffineAt
import Idealize.ShloMosaic.Lib.Pipeline.Value
import Idealize.ShloMosaic.Lib.ValueIdx

set_option maxRecDepth 16384

noncomputable section

namespace Cert.KernelIdeal.Lin0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block product into the zero accumulator plus the bias row (its shape casts are of a
    shape to itself). -/
theorem pay_eq (x : Vec Ideal S2000x256 .f32) (w : Vec Ideal S256x256 .f32) (b : Vec Ideal S1x256 .f32) :
    k0_pay1 x w b = addf (matmul dot_S2000x256_S256x256_S2000x256_1_0_0_1_n_n none (truncf .bf16 x bitsLt_bf16_f32) (truncf .bf16 w bitsLt_bf16_f32) (constant S2000x256 .f32 0x00000000#32)) (broadcastTo S2000x256 b broadcasts_S1x256_S2000x256) := by
  unfold k0_pay1
  simp only [shapeCast_self]

/-- One entry of the body's stored value against one entry of the model's affine map, given that the block's row p is the
    array's row r. -/
theorem entry_eq (x : Vec Ideal S2000x256 .f32) (w : Vec Ideal S256x256 .f32) (b : Vec Ideal S1x256 .f32)
    (X : Cert.Model.C Cert.ReferenceIdeal.S50000x256 .f32) (W : Cert.Model.C Cert.ReferenceIdeal.S256x256 .f32) (B : Cert.Model.C Cert.ReferenceIdeal.S1x256 .f32)
    (r : Fin 50000) (p : Fin 2000) (q : Fin 256)
    (hx : ∀ k : Fin 256, x (ix2 p k) = X (ix2 r k)) (hw : ∀ k : Fin 256, w (ix2 k q) = W (ix2 k q)) (hb : b (ix2 (0 : Fin 1) q) = B (ix2 (0 : Fin 1) q)) :
    k0_pay1 x w b (ix2 p q) = Cert.Model.lin256 X W B (ix2 r q) := by
  rw [pay_eq]
  refine (Cert.LibAffineAt.block_at dot_S2000x256_S256x256_S2000x256_1_0_0_1_n_n rfl broadcasts_S1x256_S2000x256 x w b bitsLt_bf16_f32 p q).trans ?_
  refine Eq.trans ?_ (Cert.LibAffineAt.host_at Cert.ReferenceIdeal.dot_S50000x256_S256x256_S50000x256_1_0_0_1_n_n rfl Cert.ReferenceIdeal.Facts₀.bcast_S1x256_S50000x256_0_1 X W B r q).symm
  rw [hb]
  refine congrArg (· + _) ?_
  exact Finset.sum_congr rfl fun k _ => by rw [hx k, hw k]

/-- The printed index maps over the grid: the input and output matrices move one block of rows per point, the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the model's affine map of the arrays the region finds. -/
theorem flushed_eq (c : Dev nD) (t : Fin cfg0.N) :
    (dat0 V c).flushed 3 t = ((cfg0.win 3).blk t).view.read (Elt Ideal) (Cert.Model.lin256 (V c main_arg0) (V c main_arg2) (V c main_v32)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  obtain ⟨e0, e1, e2, e3, e4, e5, e6, e7⟩ := idx_facts t
  have ht : t.val < 25 := by have h := t.isLt; have hN : cfg0.N = 25 := N_0; omega
  funext j
  obtain ⟨p, q, rfl⟩ : ∃ (p : Fin 2000) (q : Fin 256), j = ix2 p q := ⟨j 0, j 1, eq_ix2 j⟩
  have hi : ((cfg0.win 3).blk t).view.emb (ix2 p q) = (ix2 (⟨t.val * 2000 + p.val, by have := p.isLt; omega⟩ : Fin 50000) q : S50000x256.Idx) := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  show k0_pay1 (iblk0 V c 0 t) (iblk0 V c 1 t) (iblk0 V c 2 t) (ix2 p q) = Cert.Model.lin256 (V c main_arg0) (V c main_arg2) (V c main_v32) (((cfg0.win 3).blk t).view.emb (ix2 p q))
  rw [hi]
  refine entry_eq (iblk0 V c 0 t) (iblk0 V c 1 t) (iblk0 V c 2 t) (V c main_arg0) (V c main_arg2) (V c main_v32) _ p q ?_ ?_ ?_
  · intro k
    show V c main_arg0 (((cfg0.win 0).blk t).view.emb (ix2 p k)) = V c main_arg0 _
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  · intro k
    show V c main_arg2 (((cfg0.win 1).blk t).view.emb (ix2 k q)) = V c main_arg2 _
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  · show V c main_v32 (((cfg0.win 2).blk t).view.emb (ix2 (0 : Fin 1) q)) = V c main_v32 _
    refine congrArg _ ?_
    funext a; apply Fin.ext
    match a with
    | ⟨0, _⟩ => show win0_2.index t (0 : Fin 2) * 1 + 1 * 0 = 0; omega
    | ⟨1, _⟩ => show win0_2.index t (1 : Fin 2) * 256 + 1 * q.val = q.val; omega

/-- An index of the output array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v33).slice (win0_3.rect t)).set ↔ _
  rw [View.set_slice_whole, Rect.mem_set_unit]
  exact Iff.rfl

/-- Every row of the output lies in the block of the point numbered by its row divided by 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk]
  obtain ⟨-, -, -, -, -, -, e6, e7⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e6]; show (i 0).val / 2000 * 2000 ≤ (i 0).val ∧ (i 0).val < (i 0).val / 2000 * 2000 + 2000; omega
  | ⟨1, _⟩ => show win0_3.index _ (1 : Fin 2) * 256 ≤ (i 1).val ∧ (i 1).val < win0_3.index _ (1 : Fin 2) * 256 + 256; rw [e7]; omega

/-- The output array after the region: the model's affine map of the arrays the region finds. -/
theorem final (c : Dev nD) :
    (dat0 V c).arrAt 3 cfg0.N = Cert.Model.lin256 (V c main_arg0) (V c main_arg2) (V c main_v32) :=
  (dat0 V c).arrAt_eq_of_cover 3 _ (fun t _ => flushed_eq V c t) cover

end Cert.KernelIdeal.Lin0

end
-- ==== Proof.Lin1.lean ====
/-
  Region 1: the array the pallas_call leaves is the model's affine map of the arrays it finds.

  The grid has 25 points; point t stages rows 2000·t … 2000·t + 1999 of the input matrix, the whole weight matrix and the
  whole bias row, and writes back rows 2000·t … 2000·t + 1999 of the output. So what point t writes back is block t of
  ONE whole-array function, x · W + b, and the 25 blocks tile the 50000 rows: the output array ends holding that
  function. Stated at any contents V the region is entered with.
-/
import proofs.«132335_j68143951118655_1_alg».proof.Proof.Gen.KernelIdeal.Frame
import proofs.«132335_j68143951118655_1_alg».proof.Proof.Model
import proofs.«132335_j68143951118655_1_alg».proof.Proof.LibAffineAt
import Idealize.ShloMosaic.Lib.Pipeline.Value
import Idealize.ShloMosaic.Lib.ValueIdx

set_option maxRecDepth 16384

noncomputable section

namespace Cert.KernelIdeal.Lin1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block product into the zero accumulator plus the bias row (its shape casts are of a
    shape to itself). -/
theorem pay_eq (x : Vec Ideal S2000x256 .f32) (w : Vec Ideal S256x256 .f32) (b : Vec Ideal S1x256 .f32) :
    k1_pay1 x w b = addf (matmul dot_S2000x256_S256x256_S2000x256_1_0_0_1_n_n none (truncf .bf16 x bitsLt_bf16_f32) (truncf .bf16 w bitsLt_bf16_f32) (constant S2000x256 .f32 0x00000000#32)) (broadcastTo S2000x256 b broadcasts_S1x256_S2000x256) := by
  unfold k1_pay1
  simp only [shapeCast_self]

/-- One entry of the body's stored value against one entry of the model's affine map, given that the block's row p is the
    array's row r. -/
theorem entry_eq (x : Vec Ideal S2000x256 .f32) (w : Vec Ideal S256x256 .f32) (b : Vec Ideal S1x256 .f32)
    (X : Cert.Model.C Cert.ReferenceIdeal.S50000x256 .f32) (W : Cert.Model.C Cert.ReferenceIdeal.S256x256 .f32) (B : Cert.Model.C Cert.ReferenceIdeal.S1x256 .f32)
    (r : Fin 50000) (p : Fin 2000) (q : Fin 256)
    (hx : ∀ k : Fin 256, x (ix2 p k) = X (ix2 r k)) (hw : ∀ k : Fin 256, w (ix2 k q) = W (ix2 k q)) (hb : b (ix2 (0 : Fin 1) q) = B (ix2 (0 : Fin 1) q)) :
    k1_pay1 x w b (ix2 p q) = Cert.Model.lin256 X W B (ix2 r q) := by
  rw [pay_eq]
  refine (Cert.LibAffineAt.block_at dot_S2000x256_S256x256_S2000x256_1_0_0_1_n_n rfl broadcasts_S1x256_S2000x256 x w b bitsLt_bf16_f32 p q).trans ?_
  refine Eq.trans ?_ (Cert.LibAffineAt.host_at Cert.ReferenceIdeal.dot_S50000x256_S256x256_S50000x256_1_0_0_1_n_n rfl Cert.ReferenceIdeal.Facts₀.bcast_S1x256_S50000x256_0_1 X W B r q).symm
  rw [hb]
  refine congrArg (· + _) ?_
  exact Finset.sum_congr rfl fun k _ => by rw [hx k, hw k]

/-- The printed index maps over the grid: the input and output matrices move one block of rows per point, the weights and
    the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the model's affine map of the arrays the region finds. -/
theorem flushed_eq (c : Dev nD) (t : Fin cfg1.N) :
    (dat1 V c).flushed 3 t = ((cfg1.win 3).blk t).view.read (Elt Ideal) (Cert.Model.lin256 (V c main_v48) (V c main_arg4) (V c main_v49)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  obtain ⟨e0, e1, e2, e3, e4, e5, e6, e7⟩ := idx_facts t
  have ht : t.val < 25 := by have h := t.isLt; have hN : cfg1.N = 25 := N_1; omega
  funext j
  obtain ⟨p, q, rfl⟩ : ∃ (p : Fin 2000) (q : Fin 256), j = ix2 p q := ⟨j 0, j 1, eq_ix2 j⟩
  have hi : ((cfg1.win 3).blk t).view.emb (ix2 p q) = (ix2 (⟨t.val * 2000 + p.val, by have := p.isLt; omega⟩ : Fin 50000) q : S50000x256.Idx) := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  show k1_pay1 (iblk1 V c 0 t) (iblk1 V c 1 t) (iblk1 V c 2 t) (ix2 p q) = Cert.Model.lin256 (V c main_v48) (V c main_arg4) (V c main_v49) (((cfg1.win 3).blk t).view.emb (ix2 p q))
  rw [hi]
  refine entry_eq (iblk1 V c 0 t) (iblk1 V c 1 t) (iblk1 V c 2 t) (V c main_v48) (V c main_arg4) (V c main_v49) _ p q ?_ ?_ ?_
  · intro k
    show V c main_v48 (((cfg1.win 0).blk t).view.emb (ix2 p k)) = V c main_v48 _
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  · intro k
    show V c main_arg4 (((cfg1.win 1).blk t).view.emb (ix2 k q)) = V c main_arg4 _
    refine congrArg _ ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  · show V c main_v49 (((cfg1.win 2).blk t).view.emb (ix2 (0 : Fin 1) q)) = V c main_v49 _
    refine congrArg _ ?_
    funext a; apply Fin.ext
    match a with
    | ⟨0, _⟩ => show win1_2.index t (0 : Fin 2) * 1 + 1 * 0 = 0; omega
    | ⟨1, _⟩ => show win1_2.index t (1 : Fin 2) * 256 + 1 * q.val = q.val; omega

/-- An index of the output array is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v50).slice (win1_3.rect t)).set ↔ _
  rw [View.set_slice_whole, Rect.mem_set_unit]
  exact Iff.rfl

/-- Every row of the output lies in the block of the point numbered by its row divided by 2000. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_3 _, ?_⟩
  rw [mem_blk]
  obtain ⟨-, -, -, -, -, -, e6, e7⟩ := idx_facts ⟨(i 0).val / 2000, by rw [hN]; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 256 ≤ (i 1).val ∧ (i 1).val < win1_3.index _ (1 : Fin 2) * 256 + 256; rw [e7]; omega

/-- The output array after the region: the model's affine map of the arrays the region finds. -/
theorem final (c : Dev nD) :
    (dat1 V c).arrAt 3 cfg1.N = Cert.Model.lin256 (V c main_v48) (V c main_arg4) (V c main_v49) :=
  (dat1 V c).arrAt_eq_of_cover 3 _ (fun t _ => flushed_eq V c t) cover

end Cert.KernelIdeal.Lin1

end
-- ==== Proof.Lin2.lean ====
/-
  Region 2: the array the pallas_call leaves is the model's affine map of the arrays it finds.

  The grid has 25 points; point t stages rows 2000·t … 2000·t + 1999 of the input matrix, the whole weight matrix and the
  whole bias row, and writes back rows 2000·t … 2000·t + 1999 of the output. So what point t writes back is block t of
  ONE whole-array function, x · W + b, and the 25 blocks tile the 50000 rows: the output array ends holding that
  function. Stated at any contents V the region is entered with.
-/
import proofs.«132335_j68143951118655_1_alg».proof.Proof.Gen.KernelIdeal.Frame
import proofs.«132335_j68143951118655_1_alg».proof.Proof.Model
import proofs.«132335_j68143951118655_1_alg».proof.Proof.LibAffineAt
import Idealize.ShloMosaic.Lib.Pipeline.Value
import Idealize.ShloMosaic.Lib.ValueIdx

set_option maxRecDepth 16384

noncomputable section

namespace Cert.KernelIdeal.Lin2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block product into the zero accumulator plus the bias row (its shape casts are of a
    shape to itself). -/
theorem pay_eq (x : Vec Ideal S2000x256 .f32) (w : Vec Ideal S256x64 .f32) (b : Vec Ideal S1x64 .f32) :
    k2_pay1 x w b = addf (matmul dot_S2000x256_S256x64_S2000x64_1_0_0_1_n_n none (truncf .bf16 x bitsLt_bf16_f32) (truncf .bf16 w bitsLt_bf16_f32) (constant S2000x64 .f32 0x00000000#32)) (broadcastTo S2000x64 b broadcasts_S1x64_S2000x64) := by
  unfold k2_pay1
  simp only [shapeCast_self]

/-- One entry of the body's stored value against one entry of the model's affine map, given that the block's row p is the
    array's row r. -/
theorem entry_eq (x : Vec Ideal S2000x256 .f32) (w : Vec Ideal S256x64 .f32) (b : Vec Ideal S1x64 .f32)
    (X : Cert.Model.C Cert.ReferenceIdeal.S50000x256 .f32) (W : Cert.Model.C Cert.ReferenceIdeal.S256x64 .f32) (B : Cert.Model.C Cert.ReferenceIdeal.S1x64 .f32)
    (r : Fin 50000) (p : Fin 2000) (q : Fin 64)
    (hx : ∀ k : Fin 256, x (ix2 p k) = X (ix2 r k)) (hw : ∀ k : Fin 256, w (ix2 k q) = W (ix2 k q)) (hb : b (ix2 (0 : Fin 1) q) = B (ix2 (0 : Fin 1) q)) :
    k2_pay1 x w b (ix2 p q) = Cert.Model.lin64 X W B (ix2 r q) := by
  rw [pay_eq]
  refine (Cert.LibAffineAt.block_at dot_S2000x256_S256x64_S2000x64_1_0_0_1_n_n rfl broadcasts_S1x64_S2000x64 x w b bitsLt_bf16_f32 p q).trans ?_
  refine Eq.trans ?_ (Cert.LibAffineAt.host_at Cert.ReferenceIdeal.dot_S50000x256_S256x64_S50000x64_1_0_0_1_n_n rfl Cert.ReferenceIdeal.Facts₀.bcast_S1x64_S50000x64_0_1 X W B r q).symm
  rw [hb]
  refine congrArg (· + _) ?_
  exact Finset.sum_congr rfl fun k _ => by rw [hx k, hw k]

/-- The printed index maps over the grid: the input and output matrices move one block of rows per point, the weights and
    the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the model's affine map of the arrays the region finds. -/
theorem flushed_eq (c : Dev nD) (t : Fin cfg2.N) :
    (dat2 V c).flushed 3 t = ((cfg2.win 3).blk t).view.read (Elt Ideal) (Cert.Model.lin64 (V c main_v65) (V c main_arg6) (V c main_v66)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x64) hz, View.ld_unit_zero (S := S1x64) hz]
  obtain ⟨e0, e1, e2, e3, e4, e5, e6, e7⟩ := idx_facts t
  have ht : t.val < 25 := by have h := t.isLt; have hN : cfg2.N = 25 := N_2; omega
  funext j
  obtain ⟨p, q, rfl⟩ : ∃ (p : Fin 2000) (q : Fin 64), j = ix2 p q := ⟨j 0, j 1, eq_ix2 j⟩
  have hi : ((cfg2.win 3).blk t).view.emb (ix2 p q) = (ix2 (⟨t.val * 2000 + p.val, by have := p.isLt; omega⟩ : Fin 50000) q : S50000x64.Idx) := by
    funext a; apply Fin.ext
    match a with
    | ⟨0, _⟩ => show win2_3.index t (0 : Fin 2) * 2000 + 1 * p.val = t.val * 2000 + p.val; omega
    | ⟨1, _⟩ => show win2_3.index t (1 : Fin 2) * 64 + 1 * q.val = q.val; omega
  show k2_pay1 (iblk2 V c 0 t) (iblk2 V c 1 t) (iblk2 V c 2 t) (ix2 p q) = Cert.Model.lin64 (V c main_v65) (V c main_arg6) (V c main_v66) (((cfg2.win 3).blk t).view.emb (ix2 p q))
  rw [hi]
  refine entry_eq (iblk2 V c 0 t) (iblk2 V c 1 t) (iblk2 V c 2 t) (V c main_v65) (V c main_arg6) (V c main_v66) _ p q ?_ ?_ ?_
  · intro k
    show V c main_v65 (((cfg2.win 0).blk t).view.emb (ix2 p k)) = V c main_v65 _
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  · intro k
    show V c main_arg6 (((cfg2.win 1).blk t).view.emb (ix2 k q)) = V c main_arg6 _
    refine congrArg _ ?_
    funext a; apply Fin.ext
    match a with
    | ⟨0, _⟩ => show win2_1.index t (0 : Fin 2) * 256 + 1 * k.val = k.val; omega
    | ⟨1, _⟩ => show win2_1.index t (1 : Fin 2) * 64 + 1 * q.val = q.val; omega
  · show V c main_v66 (((cfg2.win 2).blk t).view.emb (ix2 (0 : Fin 1) q)) = V c main_v66 _
    refine congrArg _ ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega

/-- An index of the output array is in point t's block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v67).slice (win2_3.rect t)).set ↔ _
  rw [View.set_slice_whole, Rect.mem_set_unit]
  exact Iff.rfl

/-- Every row of the output lies in the block of the point numbered by its row divided by 2000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_3 _, ?_⟩
  rw [mem_blk]
  obtain ⟨-, -, -, -, -, -, e6, e7⟩ := idx_facts ⟨(i 0).val / 2000, by rw [hN]; omega⟩
  intro a
  match a with
  | ⟨0, _⟩ => show win2_3.index _ (0 : Fin 2) * 2000 ≤ (i 0).val ∧ (i 0).val < win2_3.index _ (0 : Fin 2) * 2000 + 2000; rw [e6]; show (i 0).val / 2000 * 2000 ≤ (i 0).val ∧ (i 0).val < (i 0).val / 2000 * 2000 + 2000; omega
  | ⟨1, _⟩ => show win2_3.index _ (1 : Fin 2) * 64 ≤ (i 1).val ∧ (i 1).val < win2_3.index _ (1 : Fin 2) * 64 + 64; rw [e7]; omega

/-- The output array after the region: the model's affine map of the arrays the region finds. -/
theorem final (c : Dev nD) :
    (dat2 V c).arrAt 3 cfg2.N = Cert.Model.lin64 (V c main_v65) (V c main_arg6) (V c main_v66) :=
  (dat2 V c).arrAt_eq_of_cover 3 _ (fun t _ => flushed_eq V c t) cover

end Cert.KernelIdeal.Lin2

end
-- ==== Proof.KValue.lean ====
/-
  The kernel's result as the model of its arguments.

  The contents at the eight boundaries of @main are read in order. Before the first region the buffers hold the
  arguments, the edges' sources, targets and weights, and the first bias as a one-row matrix. Each region replaces its
  output array by the affine map of the arrays it finds and leaves every other buffer alone; each stretch between two
  regions runs one aggregation layer on that output and leaves the graph's buffers and the later arguments alone. So the
  last region's output is affine ∘ layer ∘ affine ∘ layer ∘ affine of the launch arguments: the model.
-/
import proofs.«132335_j68143951118655_1_alg».proof.Proof.KRun
import proofs.«132335_j68143951118655_1_alg».proof.Proof.KHost
import proofs.«132335_j68143951118655_1_alg».proof.Proof.Lin0
import proofs.«132335_j68143951118655_1_alg».proof.Proof.Lin1
import proofs.«132335_j68143951118655_1_alg».proof.Proof.Lin2

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The last boundary's contents at the result buffer are the model of the launch arguments. -/
theorem value (c : Dev nD) : W8 m ρ c (Proc.devRef .tc main_v67) = Cert.Model.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  -- at the first region's entry: the arguments, the graph, the first bias row
  have a0 : W3 m ρ c (Proc.devRef .tc main_arg0) = (m ((c.tc : Thread nD τ).loc main_arg0)) := KHost.pre_arg0 (W0 m ρ c)
  have a2 : W3 m ρ c (Proc.devRef .tc main_arg2) = (m ((c.tc : Thread nD τ).loc main_arg2)) := KHost.pre_arg2 (W0 m ρ c)
  have a4 : W3 m ρ c (Proc.devRef .tc main_arg4) = (m ((c.tc : Thread nD τ).loc main_arg4)) := KHost.pre_arg4 (W0 m ρ c)
  have a5 : W3 m ρ c (Proc.devRef .tc main_arg5) = (m ((c.tc : Thread nD τ).loc main_arg5)) := KHost.pre_arg5 (W0 m ρ c)
  have a6 : W3 m ρ c (Proc.devRef .tc main_arg6) = (m ((c.tc : Thread nD τ).loc main_arg6)) := KHost.pre_arg6 (W0 m ρ c)
  have a7 : W3 m ρ c (Proc.devRef .tc main_arg7) = (m ((c.tc : Thread nD τ).loc main_arg7)) := KHost.pre_arg7 (W0 m ρ c)
  have g31 : W3 m ρ c (Proc.devRef .tc main_v31) = Cert.Model.norm (m ((c.tc : Thread nD τ).loc main_arg1)) := KHost.pre_v31 (W0 m ρ c)
  have g3 : W3 m ρ c (Proc.devRef .tc main_v3) = Cert.Model.rows (m ((c.tc : Thread nD τ).loc main_arg1)) := KHost.pre_v3 (W0 m ρ c)
  have g6 : W3 m ρ c (Proc.devRef .tc main_v6) = Cert.Model.cols (m ((c.tc : Thread nD τ).loc main_arg1)) := KHost.pre_v6 (W0 m ρ c)
  have r32 : W3 m ρ c (Proc.devRef .tc main_v32) = Cert.Model.row256 (m ((c.tc : Thread nD τ).loc main_arg3)) := KHost.pre_v32 (W0 m ρ c)
  -- the first region: its output is the first affine map, everything else stays
  have h33 : W4 m ρ c (Proc.devRef .tc main_v33) = Cert.Model.lin256 (m ((c.tc : Thread nD τ).loc main_arg0)) (m ((c.tc : Thread nD τ).loc main_arg2)) (Cert.Model.row256 (m ((c.tc : Thread nD τ).loc main_arg3))) := by
    refine (W4_arr m ρ c 3).trans ?_
    refine (Lin0.final (V3 m ρ) c).trans ?_
    show Cert.Model.lin256 (W3 m ρ c (Proc.devRef .tc main_arg0)) (W3 m ρ c (Proc.devRef .tc main_arg2)) (W3 m ρ c (Proc.devRef .tc main_v32)) = _
    rw [a0, a2, r32]
  have b31 : W4 m ρ c (Proc.devRef .tc main_v31) = Cert.Model.norm (m ((c.tc : Thread nD τ).loc main_arg1)) := (W4_of_ne m ρ c main_v31 (by decide)).trans g31
  have b3 : W4 m ρ c (Proc.devRef .tc main_v3) = Cert.Model.rows (m ((c.tc : Thread nD τ).loc main_arg1)) := (W4_of_ne m ρ c main_v3 (by decide)).trans g3
  have b6 : W4 m ρ c (Proc.devRef .tc main_v6) = Cert.Model.cols (m ((c.tc : Thread nD τ).loc main_arg1)) := (W4_of_ne m ρ c main_v6 (by decide)).trans g6
  have ba4 : W4 m ρ c (Proc.devRef .tc main_arg4) = (m ((c.tc : Thread nD τ).loc main_arg4)) := (W4_of_ne m ρ c main_arg4 (by decide)).trans a4
  have ba5 : W4 m ρ c (Proc.devRef .tc main_arg5) = (m ((c.tc : Thread nD τ).loc main_arg5)) := (W4_of_ne m ρ c main_arg5 (by decide)).trans a5
  have ba6 : W4 m ρ c (Proc.devRef .tc main_arg6) = (m ((c.tc : Thread nD τ).loc main_arg6)) := (W4_of_ne m ρ c main_arg6 (by decide)).trans a6
  have ba7 : W4 m ρ c (Proc.devRef .tc main_arg7) = (m ((c.tc : Thread nD τ).loc main_arg7)) := (W4_of_ne m ρ c main_arg7 (by decide)).trans a7
  -- the first aggregation layer and the second bias row
  have h48 : W5 m ρ c (Proc.devRef .tc main_v48) = Cert.Model.layer (m ((c.tc : Thread nD τ).loc main_arg1)) (Cert.Model.lin256 (m ((c.tc : Thread nD τ).loc main_arg0)) (m ((c.tc : Thread nD τ).loc main_arg2)) (Cert.Model.row256 (m ((c.tc : Thread nD τ).loc main_arg3)))) := by
    refine (KHost.mid1_v48 (W4 m ρ c)).trans ?_
    rw [b31, b3, b6, h33]; rfl
  have r49 : W5 m ρ c (Proc.devRef .tc main_v49) = Cert.Model.row256 (m ((c.tc : Thread nD τ).loc main_arg5)) := (KHost.mid1_v49 (W4 m ρ c)).trans (by rw [ba5])
  have c31 : W5 m ρ c (Proc.devRef .tc main_v31) = Cert.Model.norm (m ((c.tc : Thread nD τ).loc main_arg1)) := (KHost.mid1_v31 (W4 m ρ c)).trans b31
  have c3 : W5 m ρ c (Proc.devRef .tc main_v3) = Cert.Model.rows (m ((c.tc : Thread nD τ).loc main_arg1)) := (KHost.mid1_v3 (W4 m ρ c)).trans b3
  have c6 : W5 m ρ c (Proc.devRef .tc main_v6) = Cert.Model.cols (m ((c.tc : Thread nD τ).loc main_arg1)) := (KHost.mid1_v6 (W4 m ρ c)).trans b6
  have ca4 : W5 m ρ c (Proc.devRef .tc main_arg4) = (m ((c.tc : Thread nD τ).loc main_arg4)) := (KHost.mid1_arg4 (W4 m ρ c)).trans ba4
  have ca6 : W5 m ρ c (Proc.devRef .tc main_arg6) = (m ((c.tc : Thread nD τ).loc main_arg6)) := (KHost.mid1_arg6 (W4 m ρ c)).trans ba6
  have ca7 : W5 m ρ c (Proc.devRef .tc main_arg7) = (m ((c.tc : Thread nD τ).loc main_arg7)) := (KHost.mid1_arg7 (W4 m ρ c)).trans ba7
  -- the second region
  have h50 : W6 m ρ c (Proc.devRef .tc main_v50) = Cert.Model.lin256 (Cert.Model.layer (m ((c.tc : Thread nD τ).loc main_arg1)) (Cert.Model.lin256 (m ((c.tc : Thread nD τ).loc main_arg0)) (m ((c.tc : Thread nD τ).loc main_arg2)) (Cert.Model.row256 (m ((c.tc : Thread nD τ).loc main_arg3))))) (m ((c.tc : Thread nD τ).loc main_arg4)) (Cert.Model.row256 (m ((c.tc : Thread nD τ).loc main_arg5))) := by
    refine (W6_arr m ρ c 3).trans ?_
    refine (Lin1.final (V5 m ρ) c).trans ?_
    show Cert.Model.lin256 (W5 m ρ c (Proc.devRef .tc main_v48)) (W5 m ρ c (Proc.devRef .tc main_arg4)) (W5 m ρ c (Proc.devRef .tc main_v49)) = _
    rw [h48, ca4, r49]
  have d31 : W6 m ρ c (Proc.devRef .tc main_v31) = Cert.Model.norm (m ((c.tc : Thread nD τ).loc main_arg1)) := (W6_of_ne m ρ c main_v31 (by decide)).trans c31
  have d3 : W6 m ρ c (Proc.devRef .tc main_v3) = Cert.Model.rows (m ((c.tc : Thread nD τ).loc main_arg1)) := (W6_of_ne m ρ c main_v3 (by decide)).trans c3
  have d6 : W6 m ρ c (Proc.devRef .tc main_v6) = Cert.Model.cols (m ((c.tc : Thread nD τ).loc main_arg1)) := (W6_of_ne m ρ c main_v6 (by decide)).trans c6
  have da6 : W6 m ρ c (Proc.devRef .tc main_arg6) = (m ((c.tc : Thread nD τ).loc main_arg6)) := (W6_of_ne m ρ c main_arg6 (by decide)).trans ca6
  have da7 : W6 m ρ c (Proc.devRef .tc main_arg7) = (m ((c.tc : Thread nD τ).loc main_arg7)) := (W6_of_ne m ρ c main_arg7 (by decide)).trans ca7
  -- the second aggregation layer and the head's bias row
  have h65 : W7 m ρ c (Proc.devRef .tc main_v65) = Cert.Model.layer (m ((c.tc : Thread nD τ).loc main_arg1)) (Cert.Model.lin256 (Cert.Model.layer (m ((c.tc : Thread nD τ).loc main_arg1)) (Cert.Model.lin256 (m ((c.tc : Thread nD τ).loc main_arg0)) (m ((c.tc : Thread nD τ).loc main_arg2)) (Cert.Model.row256 (m ((c.tc : Thread nD τ).loc main_arg3))))) (m ((c.tc : Thread nD τ).loc main_arg4)) (Cert.Model.row256 (m ((c.tc : Thread nD τ).loc main_arg5)))) := by
    refine (KHost.mid2_v65 (W6 m ρ c)).trans ?_
    rw [d31, d3, d6, h50]; rfl
  have r66 : W7 m ρ c (Proc.devRef .tc main_v66) = Cert.Model.row64 (m ((c.tc : Thread nD τ).loc main_arg7)) := (KHost.mid2_v66 (W6 m ρ c)).trans (by rw [da7])
  have ea6 : W7 m ρ c (Proc.devRef .tc main_arg6) = (m ((c.tc : Thread nD τ).loc main_arg6)) := (KHost.mid2_arg6 (W6 m ρ c)).trans da6
  -- the third region: the head
  refine (W8_arr m ρ c 3).trans ?_
  refine (Lin2.final (V7 m ρ) c).trans ?_
  show Cert.Model.lin64 (W7 m ρ c (Proc.devRef .tc main_v65)) (W7 m ρ c (Proc.devRef .tc main_arg6)) (W7 m ρ c (Proc.devRef .tc main_v66)) = _
  rw [h65, ea6, r66]; rfl

/-- Every weakly fair execution of the kernel's @main terminates with the result at the model of the arguments and the
    arguments as launched. -/
theorem run : θ_run (defs (F := Ideal)) (onTc (τ := τ) (main (F := Ideal))) ⟨m, fun _ => 0, ρ⟩ (fun r => ∀ c : Dev nD,
      r.2.mem ((c.tc : Thread nD τ).loc main_v67) = Cert.Model.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (KRun.run (F := Ideal) m ρ)

end Cert.KernelIdeal.KValue

end
-- ==== Proof.RefValue.lean ====
/-
  The reference program's result, read as the model of its arguments.

  The program is a straight line of 93 host operations. Its final contents are the fold of the operations' results
  over the contents at launch. The line is cut into six consecutive stretches, each computing one stage of the model:
  the edges' sources and targets; the per-node factor deg^(-1/2); the edges' weights; twice "affine map, then one
  aggregation layer"; the affine head. The fold over a concatenation is the fold of the second list over the fold of
  the first, so the contents after the whole line are the stretches' folds composed. For each stretch, over ANY
  contents `V` before it, the buffer it computes holds the corresponding stage of `Cert.Model` of the contents of the
  buffers it reads, and every buffer a later stretch reads is unchanged through it. Chaining these from the launch
  contents gives the model of the eight arguments at the result buffer.
-/
import proofs.«132335_j68143951118655_1_alg».proof.Proof.RefRun
import proofs.«132335_j68143951118655_1_alg».proof.Proof.Model

noncomputable section

namespace Cert.ReferenceIdeal.RefValue

open Cert.ReferenceIdeal Cert.ReferenceIdeal.Gen Idealize.ShloMosaic Idealize.ShloMosaic.TcCoe Idealize.SL.Sem Idealize.ShloMosaic.StableHlo

section Stretches

variable {F : FTy → Type} [FloatOps F]

/-- Operations 1 to 7: the source and the target of every edge. -/
abbrev opsEdges : List (HloOp τ sig (Elt F)) :=
  [ nullary main_v0 (iotaInDim S50000 32 0),
    unary main_arg1 main_v1 ((extractStridedSlice S1x400000 ![0, 0] · slices_S2x400000_S1x400000_0_0) : (⟨S2x400000, .i32⟩ : BufTy).Contents (Elt F) → (⟨S1x400000, .i32⟩ : BufTy).Contents (Elt F)),
    reshape main_v1 main_v2 rfl shapeCasts_S1x400000_S400000,
    binary main_v2 main_v0 main_v3 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    unary main_arg1 main_v4 ((extractStridedSlice S1x400000 ![1, 0] · slices_S2x400000_S1x400000_1_0) : (⟨S2x400000, .i32⟩ : BufTy).Contents (Elt F) → (⟨S1x400000, .i32⟩ : BufTy).Contents (Elt F)),
    reshape main_v4 main_v5 rfl shapeCasts_S1x400000_S400000,
    binary main_v5 main_v0 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)) ]

/-- Operations 8 to 24: the degree of every node and its inverse square root where the degree is positive. -/
abbrev opsDis : List (HloOp τ sig (Elt F)) :=
  [ nullary main_cst (constant S_ .f32 0x3F800000#32),
    unary main_cst main_v7 (broadcastInDim S450000 ![] bcast_S_S450000 : (⟨S_, .f32⟩ : BufTy).Contents (Elt F) → (⟨S450000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S450000x1 ![0] bcast_S450000_S450000x1_0 : (⟨S450000, .i32⟩ : BufTy).Contents (Elt F) → (⟨S450000x1, .i32⟩ : BufTy).Contents (Elt F)),
    ternary main_v8 main_v9 main_v7 main_v10 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

/-- Operations 25 to 43: every edge's weight. -/
abbrev opsNorm : List (HloOp τ sig (Elt F)) :=
  [ nullary main_c (constantI S_ 32 0#32),
    unary main_c main_v17 (broadcastInDim S450000 ![] bcast_S_S450000 : (⟨S_, .i32⟩ : BufTy).Contents (Elt F) → (⟨S450000, .i32⟩ : BufTy).Contents (Elt F)),
    binary main_v3 main_v17 main_v18 (cmpi .slt : (⟨S450000, .i32⟩ : BufTy).Contents (Elt F) → (⟨S450000, .i32⟩ : BufTy).Contents (Elt F) → (⟨S450000, .i1⟩ : BufTy).Contents (Elt F)),
    nullary main_c_4 (constantI S_ 32 50000#32),
    unary main_c_4 main_v19 (broadcastInDim S450000 ![] bcast_S_S450000 : (⟨S_, .i32⟩ : BufTy).Contents (Elt F) → (⟨S450000, .i32⟩ : BufTy).Contents (Elt F)),
    binary main_v3 main_v19 main_v20 (addi : (⟨S450000, .i32⟩ : BufTy).Contents (Elt F) → (⟨S450000, .i32⟩ : BufTy).Contents (Elt F) → (⟨S450000, .i32⟩ : BufTy).Contents (Elt F)),
    ternary main_v18 main_v20 main_v3 main_v21 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v21 main_v22 (broadcastInDim S450000x1 ![0] bcast_S450000_S450000x1_0 : (⟨S450000, .i32⟩ : BufTy).Contents (Elt F) → (⟨S450000x1, .i32⟩ : BufTy).Contents (Elt F)),
    binary main_v16 main_v22 main_v23 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    nullary main_c_5 (constantI S_ 32 0#32),
    unary main_c_5 main_v24 (broadcastInDim S450000 ![] bcast_S_S450000 : (⟨S_, .i32⟩ : BufTy).Contents (Elt F) → (⟨S450000, .i32⟩ : BufTy).Contents (Elt F)),
    binary main_v6 main_v24 main_v25 (cmpi .slt : (⟨S450000, .i32⟩ : BufTy).Contents (Elt F) → (⟨S450000, .i32⟩ : BufTy).Contents (Elt F) → (⟨S450000, .i1⟩ : BufTy).Contents (Elt F)),
    nullary main_c_6 (constantI S_ 32 50000#32),
    unary main_c_6 main_v26 (broadcastInDim S450000 ![] bcast_S_S450000 : (⟨S_, .i32⟩ : BufTy).Contents (Elt F) → (⟨S450000, .i32⟩ : BufTy).Contents (Elt F)),
    binary main_v6 main_v26 main_v27 (addi : (⟨S450000, .i32⟩ : BufTy).Contents (Elt F) → (⟨S450000, .i32⟩ : BufTy).Contents (Elt F) → (⟨S450000, .i32⟩ : BufTy).Contents (Elt F)),
    ternary main_v25 main_v27 main_v6 main_v28 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v28 main_v29 (broadcastInDim S450000x1 ![0] bcast_S450000_S450000x1_0 : (⟨S450000, .i32⟩ : BufTy).Contents (Elt F) → (⟨S450000x1, .i32⟩ : BufTy).Contents (Elt F)),
    binary main_v16 main_v29 main_v30 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v23 main_v30 main_v31 (mulf : (⟨S450000, .f32⟩ : BufTy).Contents (Elt F) → (⟨S450000, .f32⟩ : BufTy).Contents (Elt F) → (⟨S450000, .f32⟩ : BufTy).Contents (Elt F)) ]

/-- Operations 44 to 66: the first affine map and the first aggregation layer. -/
abbrev opsLayer1 : List (HloOp τ sig (Elt F)) :=
  [ binary main_arg0 main_arg2 main_v32 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v33 (broadcastInDim S1x256 ![1] bcast_S256_S1x256_1 : (⟨S256, .f32⟩ : BufTy).Contents (Elt F) → (⟨S1x256, .f32⟩ : BufTy).Contents (Elt F)),
    unary main_v33 main_v34 (broadcastInDim S50000x256 ![0, 1] bcast_S1x256_S50000x256_0_1 : (⟨S1x256, .f32⟩ : BufTy).Contents (Elt F) → (⟨S50000x256, .f32⟩ : BufTy).Contents (Elt F)),
    binary main_v32 main_v34 main_v35 (addf : (⟨S50000x256, .f32⟩ : BufTy).Contents (Elt F) → (⟨S50000x256, .f32⟩ : BufTy).Contents (Elt F) → (⟨S50000x256, .f32⟩ : BufTy).Contents (Elt F)),
    unary main_v31 main_v36 (broadcastInDim S450000x1 ![0] bcast_S450000_S450000x1_0 : (⟨S450000, .f32⟩ : BufTy).Contents (Elt F) → (⟨S450000x1, .f32⟩ : BufTy).Contents (Elt F)),
    nullary main_c_7 (constantI S_ 32 0#32),
    unary main_c_7 main_v37 (broadcastInDim S450000 ![] bcast_S_S450000 : (⟨S_, .i32⟩ : BufTy).Contents (Elt F) → (⟨S450000, .i32⟩ : BufTy).Contents (Elt F)),
    binary main_v3 main_v37 main_v38 (cmpi .slt : (⟨S450000, .i32⟩ : BufTy).Contents (Elt F) → (⟨S450000, .i32⟩ : BufTy).Contents (Elt F) → (⟨S450000, .i1⟩ : BufTy).Contents (Elt F)),
    nullary main_c_8 (constantI S_ 32 50000#32),
    unary main_c_8 main_v39 (broadcastInDim S450000 ![] bcast_S_S450000 : (⟨S_, .i32⟩ : BufTy).Contents (Elt F) → (⟨S450000, .i32⟩ : BufTy).Contents (Elt F)),
    binary main_v3 main_v39 main_v40 (addi : (⟨S450000, .i32⟩ : BufTy).Contents (Elt F) → (⟨S450000, .i32⟩ : BufTy).Contents (Elt F) → (⟨S450000, .i32⟩ : BufTy).Contents (Elt F)),
    ternary main_v38 main_v40 main_v3 main_v41 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v41 main_v42 (broadcastInDim S450000x1 ![0] bcast_S450000_S450000x1_0 : (⟨S450000, .i32⟩ : BufTy).Contents (Elt F) → (⟨S450000x1, .i32⟩ : BufTy).Contents (Elt F)),
    binary main_v35 main_v42 main_v43 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    unary main_v36 main_v44 (broadcastInDim S450000x256 ![0, 1] bcast_S450000x1_S450000x256_0_1 : (⟨S450000x1, .f32⟩ : BufTy).Contents (Elt F) → (⟨S450000x256, .f32⟩ : BufTy).Contents (Elt F)),
    binary main_v44 main_v43 main_v45 (mulf : (⟨S450000x256, .f32⟩ : BufTy).Contents (Elt F) → (⟨S450000x256, .f32⟩ : BufTy).Contents (Elt F) → (⟨S450000x256, .f32⟩ : BufTy).Contents (Elt F)),
    nullary main_cst_9 (constant S_ .f32 0x00000000#32),
    unary main_cst_9 main_v46 (broadcastInDim S50000x256 ![] bcast_S_S50000x256 : (⟨S_, .f32⟩ : BufTy).Contents (Elt F) → (⟨S50000x256, .f32⟩ : BufTy).Contents (Elt F)),
    unary main_v6 main_v47 (broadcastInDim S450000x1 ![0] bcast_S450000_S450000x1_0 : (⟨S450000, .i32⟩ : BufTy).Contents (Elt F) → (⟨S450000x1, .i32⟩ : BufTy).Contents (Elt F)),
    ternary main_v46 main_v47 main_v45 main_v48 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v48) (TRef.of (T := ⟨S50000x256, .f32⟩) main_call1_v0) (TRef.of (T := ⟨S50000x256, .f32⟩) main_v49) maximumf ]

/-- Operations 67 to 89: the second affine map and the second aggregation layer. -/
abbrev opsLayer2 : List (HloOp τ sig (Elt F)) :=
  [ binary main_v49 main_arg4 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg5 main_v51 (broadcastInDim S1x256 ![1] bcast_S256_S1x256_1 : (⟨S256, .f32⟩ : BufTy).Contents (Elt F) → (⟨S1x256, .f32⟩ : BufTy).Contents (Elt F)),
    unary main_v51 main_v52 (broadcastInDim S50000x256 ![0, 1] bcast_S1x256_S50000x256_0_1 : (⟨S1x256, .f32⟩ : BufTy).Contents (Elt F) → (⟨S50000x256, .f32⟩ : BufTy).Contents (Elt F)),
    binary main_v50 main_v52 main_v53 (addf : (⟨S50000x256, .f32⟩ : BufTy).Contents (Elt F) → (⟨S50000x256, .f32⟩ : BufTy).Contents (Elt F) → (⟨S50000x256, .f32⟩ : BufTy).Contents (Elt F)),
    unary main_v31 main_v54 (broadcastInDim S450000x1 ![0] bcast_S450000_S450000x1_0 : (⟨S450000, .f32⟩ : BufTy).Contents (Elt F) → (⟨S450000x1, .f32⟩ : BufTy).Contents (Elt F)),
    nullary main_c_10 (constantI S_ 32 0#32),
    unary main_c_10 main_v55 (broadcastInDim S450000 ![] bcast_S_S450000 : (⟨S_, .i32⟩ : BufTy).Contents (Elt F) → (⟨S450000, .i32⟩ : BufTy).Contents (Elt F)),
    binary main_v3 main_v55 main_v56 (cmpi .slt : (⟨S450000, .i32⟩ : BufTy).Contents (Elt F) → (⟨S450000, .i32⟩ : BufTy).Contents (Elt F) → (⟨S450000, .i1⟩ : BufTy).Contents (Elt F)),
    nullary main_c_11 (constantI S_ 32 50000#32),
    unary main_c_11 main_v57 (broadcastInDim S450000 ![] bcast_S_S450000 : (⟨S_, .i32⟩ : BufTy).Contents (Elt F) → (⟨S450000, .i32⟩ : BufTy).Contents (Elt F)),
    binary main_v3 main_v57 main_v58 (addi : (⟨S450000, .i32⟩ : BufTy).Contents (Elt F) → (⟨S450000, .i32⟩ : BufTy).Contents (Elt F) → (⟨S450000, .i32⟩ : BufTy).Contents (Elt F)),
    ternary main_v56 main_v58 main_v3 main_v59 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v59 main_v60 (broadcastInDim S450000x1 ![0] bcast_S450000_S450000x1_0 : (⟨S450000, .i32⟩ : BufTy).Contents (Elt F) → (⟨S450000x1, .i32⟩ : BufTy).Contents (Elt F)),
    binary main_v53 main_v60 main_v61 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    unary main_v54 main_v62 (broadcastInDim S450000x256 ![0, 1] bcast_S450000x1_S450000x256_0_1 : (⟨S450000x1, .f32⟩ : BufTy).Contents (Elt F) → (⟨S450000x256, .f32⟩ : BufTy).Contents (Elt F)),
    binary main_v62 main_v61 main_v63 (mulf : (⟨S450000x256, .f32⟩ : BufTy).Contents (Elt F) → (⟨S450000x256, .f32⟩ : BufTy).Contents (Elt F) → (⟨S450000x256, .f32⟩ : BufTy).Contents (Elt F)),
    nullary main_cst_12 (constant S_ .f32 0x00000000#32),
    unary main_cst_12 main_v64 (broadcastInDim S50000x256 ![] bcast_S_S50000x256 : (⟨S_, .f32⟩ : BufTy).Contents (Elt F) → (⟨S50000x256, .f32⟩ : BufTy).Contents (Elt F)),
    unary main_v6 main_v65 (broadcastInDim S450000x1 ![0] bcast_S450000_S450000x1_0 : (⟨S450000, .i32⟩ : BufTy).Contents (Elt F) → (⟨S450000x1, .i32⟩ : BufTy).Contents (Elt F)),
    ternary main_v64 main_v65 main_v63 main_v66 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v66) (TRef.of (T := ⟨S50000x256, .f32⟩) main_call2_v0) (TRef.of (T := ⟨S50000x256, .f32⟩) main_v67) maximumf ]

/-- Operations 90 to 93: the affine head. -/
abbrev opsHead : List (HloOp τ sig (Elt F)) :=
  [ binary main_v67 main_arg6 main_v68 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v69 (broadcastInDim S1x64 ![1] bcast_S64_S1x64_1 : (⟨S64, .f32⟩ : BufTy).Contents (Elt F) → (⟨S1x64, .f32⟩ : BufTy).Contents (Elt F)),
    unary main_v69 main_v70 (broadcastInDim S50000x64 ![0, 1] bcast_S1x64_S50000x64_0_1 : (⟨S1x64, .f32⟩ : BufTy).Contents (Elt F) → (⟨S50000x64, .f32⟩ : BufTy).Contents (Elt F)),
    binary main_v68 main_v70 main_v71 (addf : (⟨S50000x64, .f32⟩ : BufTy).Contents (Elt F) → (⟨S50000x64, .f32⟩ : BufTy).Contents (Elt F) → (⟨S50000x64, .f32⟩ : BufTy).Contents (Elt F)) ]

end Stretches

/-- The program's operations are the six stretches in order. -/
theorem ops_eq : (RunP.ops (F := Ideal)) = opsEdges ++ opsDis ++ opsNorm ++ opsLayer1 ++ opsLayer2 ++ opsHead := rfl

/-- The contents after two lines run one after the other. -/
theorem after_append (A B : List (HloOp τ sig (Elt Ideal))) (V : Valuation τ sig (Elt Ideal)) :
    after (A ++ B) V = after B (after A V) := by
  induction A generalizing V with
  | nil => rfl
  | cons op A ih => simp only [List.cons_append, after_cons, ih]

/-! ## The edges (operations 1 to 7) -/

/-- The sources of the edges: row 0 of the edge list, then the self loops. -/
theorem edges_v3 (V : Valuation τ sig (Elt Ideal)) :
    after (opsEdges (F := Ideal)) V (Proc.devRef .tc main_v3) = Model.rows (V (Proc.devRef .tc main_arg1)) := by
  after_results
  rfl

/-- The targets of the edges: row 1 of the edge list, then the self loops. -/
theorem edges_v6 (V : Valuation τ sig (Elt Ideal)) :
    after (opsEdges (F := Ideal)) V (Proc.devRef .tc main_v6) = Model.cols (V (Proc.devRef .tc main_arg1)) := by
  after_results
  rfl

/-! A buffer a stretch does not write keeps its contents through it: one statement per stretch and buffer read later. -/

theorem opsEdges_arg0 (V : Valuation τ sig (Elt Ideal)) :
    after (opsEdges (F := Ideal)) V (Proc.devRef .tc main_arg0) = V (Proc.devRef .tc main_arg0) := by
  after_results_simp <;> rfl
theorem opsEdges_arg2 (V : Valuation τ sig (Elt Ideal)) :
    after (opsEdges (F := Ideal)) V (Proc.devRef .tc main_arg2) = V (Proc.devRef .tc main_arg2) := by
  after_results_simp <;> rfl
theorem opsEdges_arg3 (V : Valuation τ sig (Elt Ideal)) :
    after (opsEdges (F := Ideal)) V (Proc.devRef .tc main_arg3) = V (Proc.devRef .tc main_arg3) := by
  after_results_simp <;> rfl
theorem opsEdges_arg4 (V : Valuation τ sig (Elt Ideal)) :
    after (opsEdges (F := Ideal)) V (Proc.devRef .tc main_arg4) = V (Proc.devRef .tc main_arg4) := by
  after_results_simp <;> rfl
theorem opsEdges_arg5 (V : Valuation τ sig (Elt Ideal)) :
    after (opsEdges (F := Ideal)) V (Proc.devRef .tc main_arg5) = V (Proc.devRef .tc main_arg5) := by
  after_results_simp <;> rfl
theorem opsEdges_arg6 (V : Valuation τ sig (Elt Ideal)) :
    after (opsEdges (F := Ideal)) V (Proc.devRef .tc main_arg6) = V (Proc.devRef .tc main_arg6) := by
  after_results_simp <;> rfl
theorem opsEdges_arg7 (V : Valuation τ sig (Elt Ideal)) :
    after (opsEdges (F := Ideal)) V (Proc.devRef .tc main_arg7) = V (Proc.devRef .tc main_arg7) := by
  after_results_simp <;> rfl

/-! ## The per-node factor (operations 8 to 24) -/

/-- From the sources of the edges of `e`: deg^(-1/2) where the degree is positive, 0 elsewhere. -/
theorem dis_v16 (V : Valuation τ sig (Elt Ideal)) (e : Model.C S2x400000 .i32) (h : V (Proc.devRef .tc main_v3) = Model.rows e) :
    after (opsDis (F := Ideal)) V (Proc.devRef .tc main_v16) = Model.dis e := by
  after_results_simp
  rw [h]
  simp only [TRef.toBuf, TRef.ofBuf, cast_eq]
  rfl

theorem opsDis_v3 (V : Valuation τ sig (Elt Ideal)) :
    after (opsDis (F := Ideal)) V (Proc.devRef .tc main_v3) = V (Proc.devRef .tc main_v3) := by
  after_results_simp <;> rfl
theorem opsDis_v6 (V : Valuation τ sig (Elt Ideal)) :
    after (opsDis (F := Ideal)) V (Proc.devRef .tc main_v6) = V (Proc.devRef .tc main_v6) := by
  after_results_simp <;> rfl
theorem opsDis_arg0 (V : Valuation τ sig (Elt Ideal)) :
    after (opsDis (F := Ideal)) V (Proc.devRef .tc main_arg0) = V (Proc.devRef .tc main_arg0) := by
  after_results_simp <;> rfl
theorem opsDis_arg2 (V : Valuation τ sig (Elt Ideal)) :
    after (opsDis (F := Ideal)) V (Proc.devRef .tc main_arg2) = V (Proc.devRef .tc main_arg2) := by
  after_results_simp <;> rfl
theorem opsDis_arg3 (V : Valuation τ sig (Elt Ideal)) :
    after (opsDis (F := Ideal)) V (Proc.devRef .tc main_arg3) = V (Proc.devRef .tc main_arg3) := by
  after_results_simp <;> rfl
theorem opsDis_arg4 (V : Valuation τ sig (Elt Ideal)) :
    after (opsDis (F := Ideal)) V (Proc.devRef .tc main_arg4) = V (Proc.devRef .tc main_arg4) := by
  after_results_simp <;> rfl
theorem opsDis_arg5 (V : Valuation τ sig (Elt Ideal)) :
    after (opsDis (F := Ideal)) V (Proc.devRef .tc main_arg5) = V (Proc.devRef .tc main_arg5) := by
  after_results_simp <;> rfl
theorem opsDis_arg6 (V : Valuation τ sig (Elt Ideal)) :
    after (opsDis (F := Ideal)) V (Proc.devRef .tc main_arg6) = V (Proc.devRef .tc main_arg6) := by
  after_results_simp <;> rfl
theorem opsDis_arg7 (V : Valuation τ sig (Elt Ideal)) :
    after (opsDis (F := Ideal)) V (Proc.devRef .tc main_arg7) = V (Proc.devRef .tc main_arg7) := by
  after_results_simp <;> rfl

/-! ## The edges' weights (operations 25 to 43) -/

/-- Every edge's weight: the factor at its source times the factor at its target. -/
theorem norm_v31 (V : Valuation τ sig (Elt Ideal)) :
    after (opsNorm (F := Ideal)) V (Proc.devRef .tc main_v31) = Model.normOf (V (Proc.devRef .tc main_v16)) (V (Proc.devRef .tc main_v3)) (V (Proc.devRef .tc main_v6)) := by
  after_results_simp
  rfl

theorem opsNorm_v3 (V : Valuation τ sig (Elt Ideal)) :
    after (opsNorm (F := Ideal)) V (Proc.devRef .tc main_v3) = V (Proc.devRef .tc main_v3) := by
  after_results_simp <;> rfl
theorem opsNorm_v6 (V : Valuation τ sig (Elt Ideal)) :
    after (opsNorm (F := Ideal)) V (Proc.devRef .tc main_v6) = V (Proc.devRef .tc main_v6) := by
  after_results_simp <;> rfl
theorem opsNorm_arg0 (V : Valuation τ sig (Elt Ideal)) :
    after (opsNorm (F := Ideal)) V (Proc.devRef .tc main_arg0) = V (Proc.devRef .tc main_arg0) := by
  after_results_simp <;> rfl
theorem opsNorm_arg2 (V : Valuation τ sig (Elt Ideal)) :
    after (opsNorm (F := Ideal)) V (Proc.devRef .tc main_arg2) = V (Proc.devRef .tc main_arg2) := by
  after_results_simp <;> rfl
theorem opsNorm_arg3 (V : Valuation τ sig (Elt Ideal)) :
    after (opsNorm (F := Ideal)) V (Proc.devRef .tc main_arg3) = V (Proc.devRef .tc main_arg3) := by
  after_results_simp <;> rfl
theorem opsNorm_arg4 (V : Valuation τ sig (Elt Ideal)) :
    after (opsNorm (F := Ideal)) V (Proc.devRef .tc main_arg4) = V (Proc.devRef .tc main_arg4) := by
  after_results_simp <;> rfl
theorem opsNorm_arg5 (V : Valuation τ sig (Elt Ideal)) :
    after (opsNorm (F := Ideal)) V (Proc.devRef .tc main_arg5) = V (Proc.devRef .tc main_arg5) := by
  after_results_simp <;> rfl
theorem opsNorm_arg6 (V : Valuation τ sig (Elt Ideal)) :
    after (opsNorm (F := Ideal)) V (Proc.devRef .tc main_arg6) = V (Proc.devRef .tc main_arg6) := by
  after_results_simp <;> rfl
theorem opsNorm_arg7 (V : Valuation τ sig (Elt Ideal)) :
    after (opsNorm (F := Ideal)) V (Proc.devRef .tc main_arg7) = V (Proc.devRef .tc main_arg7) := by
  after_results_simp <;> rfl

/-! ## The two rounds "affine map, aggregate" (operations 44 to 66 and 67 to 89) -/

/-- The first round: x · W₁ + b₁, then one aggregation layer over the edges. -/
theorem layer1_v49 (V : Valuation τ sig (Elt Ideal)) :
    after (opsLayer1 (F := Ideal)) V (Proc.devRef .tc main_v49)
      = Model.layerOf (V (Proc.devRef .tc main_v31)) (V (Proc.devRef .tc main_v3)) (V (Proc.devRef .tc main_v6))
          (Model.lin256 (V (Proc.devRef .tc main_arg0)) (V (Proc.devRef .tc main_arg2)) (Model.row256 (V (Proc.devRef .tc main_arg3)))) := by
  after_results_simp
  rfl

theorem opsLayer1_v31 (V : Valuation τ sig (Elt Ideal)) :
    after (opsLayer1 (F := Ideal)) V (Proc.devRef .tc main_v31) = V (Proc.devRef .tc main_v31) := by
  after_results_simp <;> rfl
theorem opsLayer1_v3 (V : Valuation τ sig (Elt Ideal)) :
    after (opsLayer1 (F := Ideal)) V (Proc.devRef .tc main_v3) = V (Proc.devRef .tc main_v3) := by
  after_results_simp <;> rfl
theorem opsLayer1_v6 (V : Valuation τ sig (Elt Ideal)) :
    after (opsLayer1 (F := Ideal)) V (Proc.devRef .tc main_v6) = V (Proc.devRef .tc main_v6) := by
  after_results_simp <;> rfl
theorem opsLayer1_arg4 (V : Valuation τ sig (Elt Ideal)) :
    after (opsLayer1 (F := Ideal)) V (Proc.devRef .tc main_arg4) = V (Proc.devRef .tc main_arg4) := by
  after_results_simp <;> rfl
theorem opsLayer1_arg5 (V : Valuation τ sig (Elt Ideal)) :
    after (opsLayer1 (F := Ideal)) V (Proc.devRef .tc main_arg5) = V (Proc.devRef .tc main_arg5) := by
  after_results_simp <;> rfl
theorem opsLayer1_arg6 (V : Valuation τ sig (Elt Ideal)) :
    after (opsLayer1 (F := Ideal)) V (Proc.devRef .tc main_arg6) = V (Proc.devRef .tc main_arg6) := by
  after_results_simp <;> rfl
theorem opsLayer1_arg7 (V : Valuation τ sig (Elt Ideal)) :
    after (opsLayer1 (F := Ideal)) V (Proc.devRef .tc main_arg7) = V (Proc.devRef .tc main_arg7) := by
  after_results_simp <;> rfl

/-- The second round: h · W₂ + b₂, then one aggregation layer over the edges. -/
theorem layer2_v67 (V : Valuation τ sig (Elt Ideal)) :
    after (opsLayer2 (F := Ideal)) V (Proc.devRef .tc main_v67)
      = Model.layerOf (V (Proc.devRef .tc main_v31)) (V (Proc.devRef .tc main_v3)) (V (Proc.devRef .tc main_v6))
          (Model.lin256 (V (Proc.devRef .tc main_v49)) (V (Proc.devRef .tc main_arg4)) (Model.row256 (V (Proc.devRef .tc main_arg5)))) := by
  after_results_simp
  rfl

theorem opsLayer2_arg6 (V : Valuation τ sig (Elt Ideal)) :
    after (opsLayer2 (F := Ideal)) V (Proc.devRef .tc main_arg6) = V (Proc.devRef .tc main_arg6) := by
  after_results_simp <;> rfl
theorem opsLayer2_arg7 (V : Valuation τ sig (Elt Ideal)) :
    after (opsLayer2 (F := Ideal)) V (Proc.devRef .tc main_arg7) = V (Proc.devRef .tc main_arg7) := by
  after_results_simp <;> rfl

/-! ## The affine head (operations 90 to 93) -/

/-- The head: h · W + b for 64 output features. -/
theorem head_v71 (V : Valuation τ sig (Elt Ideal)) :
    after (opsHead (F := Ideal)) V (Proc.devRef .tc main_v71)
      = Model.lin64 (V (Proc.devRef .tc main_v67)) (V (Proc.devRef .tc main_arg6)) (Model.row64 (V (Proc.devRef .tc main_arg7))) := by
  after_results_simp
  rfl

/-! ## The whole program -/

/-- The result buffer after the 93 operations, from the launch contents, is the model of the eight arguments. -/
theorem value (m : (ℓ : Loc nD τ sig) → Buf (Elt Ideal) ℓ) (c : Dev nD) :
    StableHlo.after (Cert.ReferenceIdeal.RunP.ops (F := Ideal)) (StableHlo.launchContents m c) (Proc.devRef .tc main_v71)
      = Cert.Model.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_eq]
  simp only [after_append]
  rw [head_v71, opsLayer2_arg6, opsLayer2_arg7, layer2_v67,
    opsLayer1_v31, opsLayer1_v3, opsLayer1_v6, opsLayer1_arg4, opsLayer1_arg5, opsLayer1_arg6, opsLayer1_arg7, layer1_v49,
    opsNorm_v3, opsNorm_v6, opsNorm_arg0, opsNorm_arg2, opsNorm_arg3, opsNorm_arg4, opsNorm_arg5, opsNorm_arg6, opsNorm_arg7, norm_v31,
    opsDis_v3, opsDis_v6, opsDis_arg0, opsDis_arg2, opsDis_arg3, opsDis_arg4, opsDis_arg5, opsDis_arg6, opsDis_arg7,
    dis_v16 _ _ (edges_v3 _),
    edges_v3, edges_v6, opsEdges_arg0, opsEdges_arg2, opsEdges_arg3, opsEdges_arg4, opsEdges_arg5, opsEdges_arg6, opsEdges_arg7]
  rfl

set_option maxRecDepth 8192 in
set_option maxHeartbeats 4000000 in
/-- On every device, from any memory with zero counters: every weakly fair execution of @main terminates with the
    result buffer at the model of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = Cert.Model.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v71).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (RunP.run_after (F := Ideal) m ρ)

end Cert.ReferenceIdeal.RefValue

end
-- ==== Proof.lean ====
/-
  A two-layer graph convolution with a vertex head, its three affine maps as Pallas kernels, against the plain jnp
  program: equal over the extended reals.

  Both programs add a self loop to every node, weigh each edge by deg^(-1/2) at its two ends, and apply
      affine → aggregate-and-clip → affine → aggregate-and-clip → affine.
  The aggregation (gather the source rows, scale by the edge weights, add into the target rows, clip at zero) is the
  same host operations in both programs and is carried as one function that is never opened. The affine maps differ in
  spelling only: the kernel tiles the 50000 rows into 25 blocks, multiplies each block by the whole weight matrix into a
  zero accumulator after a change of float format (the identity at the ideal values), and adds the bias row; the
  reference multiplies the whole matrix at once and adds the bias row. Entry by entry both are
  Σ_k x(r, k) · w(k, q) + b(q), one sum and one addition written the same way, so no finiteness of the inputs is used.
  The kernel's idealization rewrote no operation, so the preservation claim is trivial.
-/
import proofs.«132335_j68143951118655_1_alg».proof.Defs
import proofs.«132335_j68143951118655_1_alg».proof.Proof.Gen.Kernel
import proofs.«132335_j68143951118655_1_alg».proof.Proof.Gen.Kernel.Skeleton
import proofs.«132335_j68143951118655_1_alg».proof.Proof.Gen.Kernel.Launch
import proofs.«132335_j68143951118655_1_alg».proof.Proof.Gen.Kernel.Points
import proofs.«132335_j68143951118655_1_alg».proof.Proof.Gen.Kernel.Frame
import proofs.«132335_j68143951118655_1_alg».proof.Proof.Gen.KernelIdeal
import proofs.«132335_j68143951118655_1_alg».proof.Proof.Gen.KernelIdeal.Skeleton
import proofs.«132335_j68143951118655_1_alg».proof.Proof.Gen.KernelIdeal.Launch
import proofs.«132335_j68143951118655_1_alg».proof.Proof.Gen.KernelIdeal.Points
import proofs.«132335_j68143951118655_1_alg».proof.Proof.Gen.KernelIdeal.Frame
import proofs.«132335_j68143951118655_1_alg».proof.Proof.Gen.ReferenceIdeal
import proofs.«132335_j68143951118655_1_alg».proof.Proof.Gen.Pre_finite_inputs
import proofs.«132335_j68143951118655_1_alg».proof.Proof.KValue
import proofs.«132335_j68143951118655_1_alg».proof.Proof.RefValue
import Idealize.ShloMosaic.Adequacy
import Idealize.ShloMosaic.Init

noncomputable section

namespace Cert.Proof

open Idealize.ShloMosaic Idealize.SL.Sem

/-- The printed kernel runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealized programs end at the model of their arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
